-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S4096x4096 .f32) (main_arg2 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x4096 : Shape := ⟨2, ![16384, 4096]⟩
abbrev S4096x4096 : Shape := ⟨2, ![4096, 4096]⟩
abbrev S4096 : Shape := ⟨1, ![4096]⟩
abbrev S512x4096 : Shape := ⟨2, ![512, 4096]⟩
abbrev S1x4096 : Shape := ⟨2, ![1, 4096]⟩
abbrev S1024x4096 : Shape := ⟨2, ![1024, 4096]⟩
abbrev S4096x256 : Shape := ⟨2, ![4096, 256]⟩
abbrev S1x256 : Shape := ⟨2, ![1, 256]⟩
abbrev S1024x256 : Shape := ⟨2, ![1024, 256]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S1x4096, .f32⟩
  | .hbm, ⟨5, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S1024x4096, .f32⟩
  | .local _ .vmem, ⟨5, _⟩ => ⟨S1024x4096, .f32⟩
  | .local _ .vmem, ⟨6, _⟩ => ⟨S4096x256, .bf16⟩
  | .local _ .vmem, ⟨7, _⟩ => ⟨S4096x256, .bf16⟩
  | .local _ .vmem, ⟨8, _⟩ => ⟨S1x256, .f32⟩
  | .local _ .vmem, ⟨9, _⟩ => ⟨S1x256, .f32⟩
  | .local _ .vmem, ⟨10, _⟩ => ⟨S1024x256, .f32⟩
  | .local _ .vmem, ⟨11, _⟩ => ⟨S1024x256, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  reduces_S1024x4096_S1024 : S1024x4096.Reduces [1] S1024
  shapeCasts_S1024_S1024x1 : S1024.ShapeCasts S1024x1
  broadcasts_S1024x1_S1024x4096 : S1024x1.Broadcasts S1024x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  dot_S1024x4096_S4096x256_S1024x256_1_0_0_1_n_n_wf : DotDims.WF S1024x4096 S4096x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S16384x4096.size a
  hwx1_0 : ∀ i : grid1.Coords, EltTy.bits .f32 = 32 ∨ (Rect.block (s := S16384x4096) S1024x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x4096.size a
  hwx1_1 : ∀ i : grid1.Coords, EltTy.bits .bf16 = 32 ∨ (Rect.block (s := S4096x4096) S4096x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x4096.size a
  hwx1_2 : ∀ i : grid1.Coords, EltTy.bits .f32 = 32 ∨ (Rect.block (s := S1x4096) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S16384x4096.size a
  hwx1_3 : ∀ i : grid1.Coords, EltTy.bits .f32 = 32 ∨ (Rect.block (s := S16384x4096) S1024x256.size (cc1_transform_3 i) (hinb1_3 i)).WholeWords (EltTy.packing .f32)

variable [Facts₀]

def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S1x4096, .f32⟩
  | .hbm, ⟨15, _⟩ => ⟨S16384x4096, .f32⟩
  | .hbm, ⟨16, _⟩ => ⟨S16384x4096, .f32⟩
  | .hbm, ⟨17, _⟩ => ⟨S_, .f32⟩
  | .hbm, ⟨18, _⟩ => ⟨S16384x4096, .f32⟩
  | .hbm, ⟨19, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  reducesTo_S16384x4096_S16384_d1 : S16384x4096.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x4096_0_1 : S16384x1.BroadcastsInDim S16384x4096 (![0, 1] : Fin 2 → Fin S16384x4096.rank)
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  dot_S16384x4096_S4096x4096_S16384x4096_1_0_0_1_n_n_wf : DotDims.WF S16384x4096 S4096x4096 S16384x4096 [1] [0] [0] [1] [] []

variable [Facts₀]

def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf

class Facts : Prop extends Facts₀ where

variable [Facts]
-- ==== Proof.KernelRun.lean ====
/-
  The idealized kernel's run with its result named.

  @main is three segments: the first launch (the weight matrix copied, block of 512 rows by block, into its
  16-bit array), one host operation (the bias vector reshaped to one row), and the second launch (the normalised
  product, one 1024×256 block of the result per grid point).  Every weakly fair execution terminates, nothing
  faults, the three argument arrays end as launched, and the result array ends holding what the second launch's
  write-backs leave in it, folded over the 256 grid points in order.  The contents of the buffers at each segment
  boundary are the generated fold through @main; this module states the run once more with the result array
  read off the last boundary, which the frame statement alone does not mention.
-/
import proofs.«181939_j7352984011100_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result array at the last boundary is what the second launch's write-backs leave. -/
theorem last_result (c : Dev nD) : W3 m ρ c (Proc.devRef .tc main_v2) = (dat1 (V2 m ρ) c).arrAt 3 cfg1.N :=
  W3_arr m ρ c 3

set_option backward.isDefEq.respectTransparency.types false in
/-- The run: the result array at the fold of the second launch's write-backs, the arguments unchanged. -/
theorem run_result : θ_run defs (onTc (τ := τ) (main (F := F))) ⟨m, fun _ => 0, ρ⟩ (fun r => ∀ c : Dev nD,
      r.2.mem ((c.tc : Thread nD τ).loc main_v2) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (last_result m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelIdeal.Whole

end
-- ==== Proof.Weights.lean ====
/-
  What the second launch finds in its three input arrays.

  The first launch copies the 4096×4096 weight matrix into a 16-bit array, 512 rows at a grid point, eight points;
  the blocks it writes tile the array (the point that writes row r is r / 512), and on the extended reals the change
  of format is the identity, so the array ends holding the weight argument itself, entry by entry.  The one host
  operation between the launches recasts the bias vector as a 1×4096 row: its entry (0, q) is the bias at q.  Nothing
  before the second launch writes the input array.  So the second launch finds: the input argument; the weight
  argument; the bias argument as one row.
-/
import proofs.«181939_j7352984011100_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- A block read from offset (0, 0) is read from the zero offset. -/
theorem origin : (![0, 0] : Fin 2 → Nat) = fun _ => 0 := funext fun a => by fin_cases a <;> rfl

/-! ## The first launch: the weights in 16 bits -/

/-- The first launch's two index maps agree at every grid point, and the output's stay in range. -/
theorem cast_idx : ∀ t : Fin cfg0.N, win0_0.index t (0 : Fin 2) = win0_1.index t (0 : Fin 2)
    ∧ win0_0.index t (1 : Fin 2) = win0_1.index t (1 : Fin 2) :=
  (by decide +kernel : ∀ t : Fin grid0.N, _)

/-- Every one of the eight row blocks is some grid point's. -/
theorem cast_onto : ∀ q0 : Fin 8, ∃ t : Fin cfg0.N, win0_1.index t = ![q0.val, 0] :=
  (by decide +kernel : ∀ q0 : Fin 8, ∃ t : Fin grid0.N, win0_1.index t = ![q0.val, 0])

/-- The weight argument, read as the contents of the 16-bit array. -/
def weights (c : Dev nD) : Buf (Elt Ideal) ((c : Thread nD τ).loc main_v0) :=
  show S4096x4096.Idx → EReal from m ((c : Thread nD τ).loc main_arg1)

/-- What grid point t of the first launch writes back is block t of the weight argument. -/
theorem cast_flushed (c : Dev nD) (t : Fin cfg0.N) :
    (dat0 (V0 m ρ) c).flushed 1 t = ((cfg0.win 1).blk t).view.read (Elt Ideal) (weights m c) := by
  show (cfg0.win 1).cut (grid0.coords t) ((dat0 (V0 m ρ) c).after 1 t) = _
  rw [after0_1]
  unfold out0_1
  rw [View.canon_unit_zero origin]
  simp only [View.ld_unit_zero (S := S512x4096) origin]
  obtain ⟨e0, e1⟩ := cast_idx t
  funext j
  show (V0 m ρ c main_arg1 (((cfg0.win 0).blk t).view.emb j) : EReal) = m ((c : Thread nD τ).loc main_arg1) (((cfg0.win 1).blk t).view.emb j)
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; rw [e0]
    | ⟨1, _⟩ => show win0_0.index t (1 : Fin 2) * 4096 + 1 * (j 1).val = win0_1.index t (1 : Fin 2) * 4096 + 1 * (j 1).val; rw [e1]
  rw [h0]

/-- An index of the 16-bit array lies in grid point t's block iff each coordinate lies in the block's range. -/
theorem cast_mem_blk (t : Fin cfg0.N) (i : S4096x4096.Idx) :
    i ∈ ((cfg0.win 1).blk t).view.set ↔ ∀ a : Fin 2, win0_1.index t a * S512x4096.size a ≤ (i a).val
      ∧ (i a).val < win0_1.index t a * S512x4096.size a + S512x4096.size a := by
  show i ∈ ((View.whole main_v0).slice (win0_1.rect t)).set ↔ _
  rw [View.set_slice_whole, Rect.mem_set_unit]
  exact Iff.rfl

/-- After the first launch the 16-bit array holds the weight argument: row r was written by point r / 512. -/
theorem cast_final (c : Dev nD) : (dat0 (V0 m ρ) c).arrAt 1 cfg0.N = weights m c :=
  (dat0 (V0 m ρ) c).arrAt_eq_of_cover 1 (weights m c) (fun t _ => cast_flushed m ρ c t) fun i => by
    have hi0 : (i 0).val < 4096 := (i 0).isLt
    have hi1 : (i 1).val < 4096 := (i 1).isLt
    obtain ⟨t, ht⟩ := cast_onto ⟨(i 0).val / 512, by omega⟩
    have q0 : win0_1.index t (0 : Fin 2) = (i 0).val / 512 := congrFun ht 0
    have q1 : win0_1.index t (1 : Fin 2) = 0 := congrFun ht 1
    refine ⟨t, flush0_1 t, ?_⟩
    rw [cast_mem_blk]
    intro a
    match a with
    | ⟨0, _⟩ => show win0_1.index t (0 : Fin 2) * 512 ≤ (i 0).val ∧ (i 0).val < win0_1.index t (0 : Fin 2) * 512 + 512; omega
    | ⟨1, _⟩ => show win0_1.index t (1 : Fin 2) * 4096 ≤ (i 1).val ∧ (i 1).val < win0_1.index t (1 : Fin 2) * 4096 + 4096; omega

/-! ## What the second launch finds -/

/-- The input array is the input argument: neither the first launch nor the host operation writes it. -/
theorem found_input (c : Dev nD) : V2 m ρ c main_arg0 = m ((c : Thread nD τ).loc main_arg0) := by
  show StableHlo.after hostOps1 (W1 m ρ c) (Proc.devRef .tc main_arg0) = _
  after_results
  exact W1_of_ne m ρ c main_arg0 (by decide)

/-- The 16-bit weight array is the weight argument. -/
theorem found_weights (c : Dev nD) : V2 m ρ c main_v0 = weights m c := by
  show StableHlo.after hostOps1 (W1 m ρ c) (Proc.devRef .tc main_v0) = _
  after_results
  exact (W1_arr m ρ c 1).trans (cast_final m ρ c)

/-- The bias row at (0, q) is the bias argument at q. -/
theorem found_bias (c : Dev nD) (q : Fin 4096) :
    (V2 m ρ c main_v1 : S1x4096.Idx → EReal) (ix2 (0 : Fin 1) q) = (m ((c : Thread nD τ).loc main_arg2) : S4096.Idx → EReal) (ix1 q) := by
  have e : (V2 m ρ c main_v1 : S1x4096.Idx → EReal)
      = shapeCast S1x4096 (m ((c : Thread nD τ).loc main_arg2) : S4096.Idx → EReal) Facts₀.shapeCasts_S4096_S1x4096 := by
    show StableHlo.after hostOps1 (W1 m ρ c) (Proc.devRef .tc main_v1) = _
    after_results
    rw [W1_of_ne m ρ c main_arg2 (by decide)]
    rfl
  rw [e]
  exact shapeCast_a_1a_apply _ _ (0 : Fin 1) q

end Cert.KernelIdeal.Whole

end
-- ==== Proof.Spec.lean ====
/-
  The function both programs compute, entry by entry, on the extended reals.

  For a 16384×4096 array x, a 4096×4096 matrix w and a bias vector b of length 4096:  every row of x is divided
  by its own scale — the square root of the row's sum of squares, plus a fixed small positive number ε (the f32 word
  nearest to 1e-5, at its exact binary value) —, the scaled row is multiplied into w, the bias is added and the
  result is cut off below at zero:

      G x w b (p, q) = max ( Σ_k ( x(p,k) / (√(Σ_l x(p,l)²) + ε) ) · w(k,q) + b(q) , 0 ).

  An entry depends on ONE row of x, ONE column of w and ONE entry of b, so it is stated over those three
  (`entry`), for any length K of the row; G reads it at the row, column and bias entry of the index.  Nothing here
  distributes a product over a sum or cancels a factor, so no finiteness of the inputs is used anywhere.
-/
import Idealize.ShloMosaic.Lib.ValueIdx
import Idealize.ShloMosaic.PureOps.Ideal.Laws

noncomputable section

open scoped BigOperators

namespace Cert.NormDense

open Idealize.ShloMosaic Idealize.ShloMosaic.ValueIdx

/-- A row's scale: the square root of its sum of squares, plus ε. -/
def scale {K : Nat} (row : Fin K → EReal) : EReal :=
  Ideal.sqrt (∑ k : Fin K, row k * row k) + Ideal.ofBits .f32 0x3727C5AC#32

/-- One entry of the result from its row of x, its column of w and its bias: the row divided by its scale, times
    the column, plus the bias, cut off below at zero. -/
def entry {K : Nat} (row col : Fin K → EReal) (bias : EReal) : EReal :=
  max ((∑ k : Fin K, Ideal.div (row k) (scale row) * col k) + bias) (Ideal.ofBits .f32 0x00000000#32)

/-- An entry depends on its row, its column and its bias only through their values. -/
theorem entry_congr {K : Nat} {row row' col col' : Fin K → EReal} {bias bias' : EReal}
    (hr : ∀ k, row k = row' k) (hc : ∀ k, col k = col' k) (hb : bias = bias') :
    entry row col bias = entry row' col' bias' := by
  obtain rfl : row = row' := funext hr
  obtain rfl : col = col' := funext hc
  rw [hb]

/-- The whole result: entry (p, q) from row p of x, column q of w and b(q). -/
def G (x : (⟨2, ![16384, 4096]⟩ : Shape).Idx → EReal) (w : (⟨2, ![4096, 4096]⟩ : Shape).Idx → EReal)
    (b : (⟨1, ![4096]⟩ : Shape).Idx → EReal) : (⟨2, ![16384, 4096]⟩ : Shape).Idx → EReal :=
  fun i => entry (fun k : Fin 4096 => x (ix2 (⟨(i 0).val, (i 0).isLt⟩ : Fin 16384) k))
    (fun k : Fin 4096 => w (ix2 k (⟨(i 1).val, (i 1).isLt⟩ : Fin 4096))) (b (ix1 (⟨(i 1).val, (i 1).isLt⟩ : Fin 4096)))

/-- G at the index built from a row p and a column q. -/
theorem G_apply (x : (⟨2, ![16384, 4096]⟩ : Shape).Idx → EReal) (w : (⟨2, ![4096, 4096]⟩ : Shape).Idx → EReal)
    (b : (⟨1, ![4096]⟩ : Shape).Idx → EReal) (p : Fin 16384) (q : Fin 4096) :
    G x w b (ix2 p q) = entry (fun k : Fin 4096 => x (ix2 p k)) (fun k : Fin 4096 => w (ix2 k q)) (b (ix1 q)) := rfl

end Cert.NormDense

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibColumn.lean ====
/-
  A vector kept as a column, read one entry at a time.

  Summing an a×b array along its rows and keeping the axis gives an a×1 column; the column is then spread back over
  the b columns to scale each row.  Two index facts carry this:  a length-a vector recast as an a×1 column holds, at
  (i, 0), the vector's entry i;  and an a×1 column spread to a×b holds, at (p, c), the column's entry (p, 0), whatever
  the column c.  Both are stated for every a and b and for entries of any type.
-/
import Idealize.ShloMosaic.Lib.ValueIdx
import Idealize.ShloMosaic.Lib.Pipeline.Value

namespace Cert.Column

open Idealize.ShloMosaic Idealize.ShloMosaic.ValueIdx

variable {α : Type}

/-- A length-a vector recast as an a×1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column spread over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column
-- ==== Proof.BlockEntry.lean ====
/-
  What one grid point of the second launch stores, entry by entry.

  At a grid point the body holds a 1024×4096 block x0 of the input, a 4096×256 block x1 of the 16-bit weights and a
  1×256 block x2 of the bias, and stores a 1024×256 block.  Its entry (p, q) is G's entry for row p of x0, column q of
  x1 and x2's entry (0, q):  the row's squares are summed along the row and kept as a column, the square root is taken
  and ε added, the column is spread back over the row and divides it; the change to 16 bits is the identity on the
  extended reals; the matrix product into a zero accumulator is the plain sum over k; the bias row is spread over the
  1024 rows and added; and the maximum with zero is taken.
-/
import proofs.«181939_j7352984011100_2_alg».proof.Proof.Gen.KernelIdeal.Skeleton
import proofs.«181939_j7352984011100_2_alg».proof.Proof.Spec
import proofs.«181939_j7352984011100_2_alg».proof.Proof.LibRowDot
import proofs.«181939_j7352984011100_2_alg».proof.Proof.LibColumn
import Idealize.ShloMosaic.Lib.ValueLayout
import Idealize.ShloMosaic.Lib.Pipeline.Value
import Idealize.ShloMosaic.PureOps.Ideal.Laws

noncomputable section

open scoped BigOperators

namespace Cert.KernelIdeal.Block

open Cert.KernelIdeal Cert.KernelIdeal.Gen
open Idealize.ShloMosaic Idealize.ShloMosaic.ValueIdx Cert.NormDense Cert.RowDot Cert.Column

/-- A sum along the rows of a 1024×4096 block, at row p: the sum over the row's 4096 entries. -/
theorem row_sum (v : FVec Ideal S1024x4096 .f32) (hr : S1024x4096.Reduces [1] S1024) (hφ : FKind.Formats .f32)
    (hacc : (0x00000000#32 : BitVec 32) = FKind.add.neutral .f32 hφ) (p : Fin 1024) :
    multiReduction .add [1] S1024 v 0x00000000#32 hr hφ hacc (ix1 p) = ∑ k : Fin 4096, v (ix2 p k) := by
  refine (Ideal.multiReduction_add_single v _ hr hφ hacc (ix1 p)).trans ?_
  refine Finset.sum_congr rfl fun k _ => congrArg v ?_
  exact funext fun a => Fin.ext (by match a with | ⟨0, _⟩ => rfl | ⟨1, _⟩ => rfl)

/-- The block's row p divided by its scale, at column k. -/
theorem unit_row (x0 : FVec Ideal S1024x4096 .f32) (hr : S1024x4096.Reduces [1] S1024) (hφ : FKind.Formats .f32)
    (hacc : (0x00000000#32 : BitVec 32) = FKind.add.neutral .f32 hφ) (hc : S1024.ShapeCasts S1024x1)
    (hb : S1024x1.Broadcasts S1024x4096) (p : Fin 1024) (k : Fin 4096) :
    divf x0 (broadcastTo S1024x4096 (addf (sqrt (shapeCast S1024x1 (multiReduction .add [1] S1024 (mulf x0 x0) 0x00000000#32 hr hφ hacc) hc))
        (broadcast S1024x1 (Scalar.ofBits (F := Ideal) .f32 0x3727C5AC#32))) hb) (ix2 p k)
      = Ideal.div (x0 (ix2 p k)) (scale (fun l : Fin 4096 => x0 (ix2 p l))) := by
  rw [divf_apply, broadcastTo_a1_ab_apply, addf_apply, broadcast_apply]
  show Ideal.div (x0 (ix2 p k)) (Ideal.sqrt (shapeCast S1024x1 _ hc (ix2 p (0 : Fin 1))) + Ideal.ofBits .f32 0x3727C5AC#32) = _
  rw [shapeCast_a_a1_apply, row_sum]
  rfl

/-- The stored block at (p, q). -/
theorem block_entry (x0 : Vec Ideal S1024x4096 .f32) (x1 : Vec Ideal S4096x256 .bf16) (x2 : Vec Ideal S1x256 .f32)
    (p : Fin 1024) (q : Fin 256) :
    k1_pay1 (F := Ideal) x0 x1 x2 (ix2 p q)
      = entry (fun k : Fin 4096 => x0 (ix2 p k)) (fun k : Fin 4096 => x1 (ix2 k q)) (x2 (ix2 (0 : Fin 1) q)) := by
  unfold k1_pay1 entry
  dsimp only
  rw [maximumf_apply, addf_apply, broadcast_apply, broadcastTo_1b_ab_apply, shapeCast_self, shapeCast_self]
  refine congrArg₂ max (congrArg (· + x2 (ix2 (0 : Fin 1) q)) ?_) rfl
  refine (matmul_plain_zero_apply (M := 1024) (K := 4096) (N := 256) none _ x1 (ix2 p q)).trans ?_
  unfold rowDot rowOf
  refine Finset.sum_congr rfl fun k _ => congrArg (· * x1 (ix2 k q)) ?_
  exact unit_row (x0 : FVec Ideal S1024x4096 .f32) _ _ _ _ _ p k

end Cert.KernelIdeal.Block

end
-- ==== Proof.DenseGrid.lean ====
/-
  The second launch's grid, decided once.

  The grid is 16×16.  At the point (i, j) the input window is at block (i, 0), the weight window and the bias window at
  block (0, j), and the result window at block (i, j); and every block (i, j) of the result is some point's.
-/
import proofs.«181939_j7352984011100_2_alg».proof.Proof.Gen.KernelIdeal.Launch

set_option maxRecDepth 16384

noncomputable section

namespace Cert.KernelIdeal.Whole

open Cert.KernelIdeal Cert.KernelIdeal.Gen Idealize.ShloMosaic

/-- The second launch's index maps at every grid point: the input block follows the result block's row of blocks,
    the weight and bias blocks its column of blocks, and each spans its array along the other axis. -/
theorem dense_idx : ∀ t : Fin cfg1.N, win1_0.index t (0 : Fin 2) = win1_3.index t (0 : Fin 2) ∧ win1_0.index t (1 : Fin 2) = 0
    ∧ win1_1.index t (0 : Fin 2) = 0 ∧ win1_1.index t (1 : Fin 2) = win1_3.index t (1 : Fin 2)
    ∧ win1_2.index t (0 : Fin 2) = 0 ∧ win1_2.index t (1 : Fin 2) = win1_3.index t (1 : Fin 2) :=
  (by decide +kernel : ∀ t : Fin grid1.N, _)

/-- Every one of the 16×16 result blocks is some grid point's. -/
theorem dense_onto : ∀ (q0 q1 : Fin 16), ∃ t : Fin cfg1.N, win1_3.index t = ![q0.val, q1.val] :=
  (by decide +kernel : ∀ (q0 q1 : Fin 16), ∃ t : Fin grid1.N, win1_3.index t = ![q0.val, q1.val])

end Cert.KernelIdeal.Whole

end
-- ==== Proof.Result.lean ====
/-
  The result array after the run is G of the three arguments.

  At grid point t = (i, j) the second launch holds rows 1024·i … 1024·i+1023 of the input, columns 256·j … 256·j+255 of
  the weights and of the bias row, and writes back the block (i, j) of the result.  Entry (p, q) of what it writes is
  G's entry for row p of the input block, column q of the weight block and the bias block's entry q — that is, for row
  1024·i+p of the input argument, column 256·j+q of the weight argument and the bias argument at 256·j+q, which is
  exactly entry (1024·i+p, 256·j+q) of G.  So every point writes back its own block of the one array G; the 256 blocks
  tile the result (the point that writes (r, c) is (r / 1024, c / 256)), and the result array ends holding G.
-/
import proofs.«181939_j7352984011100_2_alg».proof.Proof.KernelRun
import proofs.«181939_j7352984011100_2_alg».proof.Proof.Weights
import proofs.«181939_j7352984011100_2_alg».proof.Proof.BlockEntry
import proofs.«181939_j7352984011100_2_alg».proof.Proof.Spec
import proofs.«181939_j7352984011100_2_alg».proof.Proof.DenseGrid

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)
open Cert.NormDense

variable (m : (ℓ : Loc nD τ sig) → Buf (Elt Ideal) ℓ) (ρ : Dev nD → PrngReg)

/-- G of the three arguments, as the contents of the result array. -/
def result (c : Dev nD) : Buf (Elt Ideal) ((c : Thread nD τ).loc main_v2) :=
  show S16384x4096.Idx → EReal from
    G (m ((c : Thread nD τ).loc main_arg0)) (m ((c : Thread nD τ).loc main_arg1)) (m ((c : Thread nD τ).loc main_arg2))

/-- What grid point t of the second launch writes back is block t of G. -/
theorem dense_flushed (c : Dev nD) (t : Fin cfg1.N) :
    (dat1 (V2 m ρ) c).flushed 3 t = ((cfg1.win 3).blk t).view.read (Elt Ideal) (result m c) := by
  show (cfg1.win 3).cut (grid1.coords t) ((dat1 (V2 m ρ) c).after 3 t) = _
  rw [after1_3]
  unfold out1_3
  rw [View.canon_unit_zero origin]
  simp only [View.ld_unit_zero (S := S1024x4096) origin, View.ld_unit_zero (S := S4096x256) origin, View.ld_unit_zero (S := S1x256) origin]
  obtain ⟨e0, e1, e2, e3, e4, e5⟩ := dense_idx t
  funext j
  obtain ⟨p, q, rfl⟩ : ∃ (p : Fin 1024) (q : Fin 256), j = ix2 p q := ⟨j 0, j 1, eq_ix2 j⟩
  refine (Block.block_entry (iblk1 (V2 m ρ) c 0 t) (iblk1 (V2 m ρ) c 1 t) (iblk1 (V2 m ρ) c 2 t) p q).trans ?_
  show entry _ _ _ = G (m ((c : Thread nD τ).loc main_arg0)) (m ((c : Thread nD τ).loc main_arg1)) (m ((c : Thread nD τ).loc main_arg2))
    (((cfg1.win 3).blk t).view.emb (ix2 p q))
  unfold G
  refine entry_congr (fun k => ?_) (fun k => ?_) ?_
  · show V2 m ρ c main_arg0 (((cfg1.win 0).blk t).view.emb (ix2 p k)) = _
    rw [found_input]
    refine congrArg (m ((c : Thread nD τ).loc main_arg0) : S16384x4096.Idx → EReal) (funext fun a => Fin.ext ?_)
    match a with
    | ⟨0, _⟩ => show win1_0.index t (0 : Fin 2) * 1024 + 1 * p.val = win1_3.index t (0 : Fin 2) * 1024 + 1 * p.val; rw [e0]
    | ⟨1, _⟩ => show win1_0.index t (1 : Fin 2) * 4096 + 1 * k.val = k.val; rw [e1]; omega
  · show V2 m ρ c main_v0 (((cfg1.win 1).blk t).view.emb (ix2 k q)) = _
    rw [found_weights]
    refine congrArg (m ((c : Thread nD τ).loc main_arg1) : S4096x4096.Idx → EReal) (funext fun a => Fin.ext ?_)
    match a with
    | ⟨0, _⟩ => show win1_1.index t (0 : Fin 2) * 4096 + 1 * k.val = k.val; rw [e2]; omega
    | ⟨1, _⟩ => show win1_1.index t (1 : Fin 2) * 256 + 1 * q.val = win1_3.index t (1 : Fin 2) * 256 + 1 * q.val; rw [e3]
  · show V2 m ρ c main_v1 (((cfg1.win 2).blk t).view.emb (ix2 (0 : Fin 1) q)) = _
    have hemb : ((cfg1.win 2).blk t).view.emb (ix2 (0 : Fin 1) q)
        = ix2 (0 : Fin 1) (⟨((((cfg1.win 3).blk t).view.emb (ix2 p q)) 1).val, ((((cfg1.win 3).blk t).view.emb (ix2 p q)) 1).isLt⟩ : Fin 4096) := by
      funext a; apply Fin.ext
      match a with
      | ⟨0, _⟩ => show win1_2.index t (0 : Fin 2) * 1 + 1 * 0 = 0; rw [e4]
      | ⟨1, _⟩ => show win1_2.index t (1 : Fin 2) * 256 + 1 * q.val = win1_3.index t (1 : Fin 2) * 256 + 1 * q.val; rw [e5]
    rw [hemb]
    exact found_bias m ρ c _

/-- An index of the result array lies in grid point t's block iff each coordinate lies in the block's range. -/
theorem dense_mem_blk (t : Fin cfg1.N) (i : S16384x4096.Idx) :
    i ∈ ((cfg1.win 3).blk t).view.set ↔ ∀ a : Fin 2, win1_3.index t a * S1024x256.size a ≤ (i a).val
      ∧ (i a).val < win1_3.index t a * S1024x256.size a + S1024x256.size a := by
  show i ∈ ((View.whole main_v2).slice (win1_3.rect t)).set ↔ _
  rw [View.set_slice_whole, Rect.mem_set_unit]
  exact Iff.rfl

/-- After the second launch the result array holds G: entry (r, c) was written by the point (r / 1024, c / 256). -/
theorem dense_final (c : Dev nD) : (dat1 (V2 m ρ) c).arrAt 3 cfg1.N = result m c :=
  (dat1 (V2 m ρ) c).arrAt_eq_of_cover 3 (result m c) (fun t _ => dense_flushed m ρ c t) fun i => by
    have hi0 : (i 0).val < 16384 := (i 0).isLt
    have hi1 : (i 1).val < 4096 := (i 1).isLt
    obtain ⟨t, ht⟩ := dense_onto ⟨(i 0).val / 1024, by omega⟩ ⟨(i 1).val / 256, by omega⟩
    have q0 : win1_3.index t (0 : Fin 2) = (i 0).val / 1024 := congrFun ht 0
    have q1 : win1_3.index t (1 : Fin 2) = (i 1).val / 256 := congrFun ht 1
    refine ⟨t, flush1_3 t, ?_⟩
    rw [dense_mem_blk]
    intro a
    match a with
    | ⟨0, _⟩ => show win1_3.index t (0 : Fin 2) * 1024 ≤ (i 0).val ∧ (i 0).val < win1_3.index t (0 : Fin 2) * 1024 + 1024; omega
    | ⟨1, _⟩ => show win1_3.index t (1 : Fin 2) * 256 ≤ (i 1).val ∧ (i 1).val < win1_3.index t (1 : Fin 2) * 256 + 256; omega

/-- The run: every weakly fair execution of the idealized kernel terminates with the result array at G of the
    three arguments, and the arguments unchanged. -/
theorem run : θ_run defs (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (dense_final m ρ c), (h c).2⟩) (run_result m ρ)

end Cert.KernelIdeal.Whole

end
-- ==== Proof.RefIsG.lean ====
/-
  The reference computes G.

  Read one operation at a time, the reference's result at (p, q) is:  the maximum with zero of the bias at q plus the
  sum over k of  x(p,k) divided by (the square root of (zero plus the sum over l of x(p,l)·x(p,l)), plus ε), times
  w(k,q).  The zero the row sum starts from is the extended real 0, so it drops out, and what is left is G's entry
  word for word: the row p of x, the column q of w and b(q).  The four index facts below say which entries of the
  arguments each stage reads: the product's left factor stays in row p, its right factor in column q, the row sum
  runs over row p whatever column it is asked from, and the bias is read at q whatever the row.
-/
import proofs.«181939_j7352984011100_2_alg».proof.Proof.Gen.ReferenceIdeal.Read
import proofs.«181939_j7352984011100_2_alg».proof.Proof.Spec

noncomputable section

open scoped BigOperators

namespace Cert.ReferenceIdeal.IsG

open Cert.ReferenceIdeal Cert.ReferenceIdeal.Gen Cert.ReferenceIdeal.Read
open Idealize.ShloMosaic Idealize.ShloMosaic.ValueIdx Cert.NormDense

/-- The product's left factor at (p, q), position k, is x's entry (p, k). -/
theorem left_idx (p : Fin 16384) (q k : Fin 4096) : lidx_main_v8 (ix2 p q) k = ix2 p k :=
  funext fun a => Fin.ext (by match a with | ⟨0, _⟩ => rfl | ⟨1, _⟩ => rfl)

/-- Its right factor is w's entry (k, q). -/
theorem right_idx (p : Fin 16384) (q k : Fin 4096) : ridx_main_v8 (ix2 p q) k = ix2 k q :=
  funext fun a => Fin.ext (by match a with | ⟨0, _⟩ => rfl | ⟨1, _⟩ => rfl)

/-- The scale spread back over the columns and asked at (p, k) is row p's sum, whose term l is x's entry (p, l). -/
theorem rowsum_idx (p : Fin 16384) (k l : Fin 4096) : idx_main_v1 (idx_main_v2 (idx_main_v6 (ix2 p k))) l = ix2 p l :=
  funext fun a => Fin.ext (by match a with | ⟨0, _⟩ => rfl | ⟨1, _⟩ => rfl)

/-- The bias spread over the rows and asked at (p, q) is b's entry q. -/
theorem bias_idx (p : Fin 16384) (q : Fin 4096) : idx_main_v9 (idx_main_v10 (ix2 p q)) = ix1 q :=
  funext fun a => Fin.ext (by match a with | ⟨0, _⟩ => rfl)

/-- The reference's last stage, as a function of the three arguments, is G. -/
theorem ref_is_G (x : (⟨S16384x4096, .f32⟩ : BufTy).Contents (Elt Ideal)) (w : (⟨S4096x4096, .f32⟩ : BufTy).Contents (Elt Ideal))
    (b : (⟨S4096, .f32⟩ : BufTy).Contents (Elt Ideal)) :
    val_main_v12 (F := Ideal) x w b = G x w b := by
  funext i
  obtain ⟨p, q, rfl⟩ : ∃ (p : Fin 16384) (q : Fin 4096), i = ix2 p q := ⟨i 0, i 1, eq_ix2 i⟩
  rw [G_apply, val_main_v12_apply, val_main_v11_apply, val_main_v8_apply, val_main_v10_apply, val_main_v9_apply,
    val_main_call0_v0_apply, val_main_call0_cst_apply]
  unfold entry scale
  simp only [val_main_v7_apply, val_main_v6_apply, val_main_v5_apply, val_main_v4_apply, val_main_v3_apply, val_main_v2_apply,
    val_main_v1_apply, val_main_v0_apply, val_main_cst_apply, val_main_cst_0_apply, left_idx, right_idx, rowsum_idx, bias_idx,
    Ideal.maximumf_def, Ideal.addf_def, Ideal.mulf_def, Ideal.hostDivf_def, Ideal.hostUnary_sqrt_def, Ideal.ofBits_def,
    Ideal.ofBits_zero_f32, zero_add]

end Cert.ReferenceIdeal.IsG

end
-- ==== Proof.lean ====
/-
  The certificate of a fused row-normalise, dense layer and cut-off kernel against its reference.

  Both programs compute, for a 16384×4096 input x, a 4096×4096 weight matrix w and a bias b,

      out(p, q) = max ( Σ_k ( x(p,k) / (√(Σ_l x(p,l)²) + ε) ) · w(k,q) + b(q) , 0 ),

  with the same ε (one f32 word, read at its exact binary value on both sides).  The kernel first copies w into
  a 16-bit array — the identity on the extended reals — and then computes the result one 1024×256 block per grid
  point, each block from 1024 whole rows of x and 256 whole columns of w, so every entry's sum over k is taken in
  one piece, exactly as the reference takes it; the two sides are the same expression entry by entry, and no
  law that needs finite inputs is used.  The three frames are the generated ones (the reference's is its run with
  the result dropped); the idealization rewrote nothing, so that claim is trivial.
-/
import proofs.«181939_j7352984011100_2_alg».proof.Defs
import proofs.«181939_j7352984011100_2_alg».proof.Proof.Gen.Kernel
import proofs.«181939_j7352984011100_2_alg».proof.Proof.Gen.Kernel.Skeleton
import proofs.«181939_j7352984011100_2_alg».proof.Proof.Gen.Kernel.Launch
import proofs.«181939_j7352984011100_2_alg».proof.Proof.Gen.Kernel.Points
import proofs.«181939_j7352984011100_2_alg».proof.Proof.Gen.Kernel.Frame
import proofs.«181939_j7352984011100_2_alg».proof.Proof.Gen.KernelIdeal
import proofs.«181939_j7352984011100_2_alg».proof.Proof.Gen.KernelIdeal.Skeleton
import proofs.«181939_j7352984011100_2_alg».proof.Proof.Gen.KernelIdeal.Launch
import proofs.«181939_j7352984011100_2_alg».proof.Proof.Gen.KernelIdeal.Points
import proofs.«181939_j7352984011100_2_alg».proof.Proof.Gen.KernelIdeal.Frame
import proofs.«181939_j7352984011100_2_alg».proof.Proof.Gen.ReferenceIdeal
import proofs.«181939_j7352984011100_2_alg».proof.Proof.Gen.Pre_finite_inputs
import proofs.«181939_j7352984011100_2_alg».proof.Proof.Gen.ReferenceIdeal.Run
import proofs.«181939_j7352984011100_2_alg».proof.Proof.Gen.ReferenceIdeal.Read
import proofs.«181939_j7352984011100_2_alg».proof.Proof.Result
import proofs.«181939_j7352984011100_2_alg».proof.Proof.RefIsG
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments the kernel's result array ends at G of them, and the
    reference's result is its last stage of them, which is G too. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v12_eq _ _ _).trans (Cert.ReferenceIdeal.IsG.ref_is_G _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
